-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x16 : Shape := ⟨2, ![500000, 16]⟩
abbrev S27x16x16 : Shape := ⟨3, ![27, 16, 16]⟩
abbrev S16 : Shape := ⟨1, ![16]⟩
abbrev S27x250000 : Shape := ⟨2, ![27, 250000]⟩
abbrev S_ : Shape := ⟨0, ![]⟩

class Facts : Prop where
  bcast_S_S500000x16 : S_.BroadcastsInDim S500000x16 (![] : Fin 0 → Fin S500000x16.rank)
  reducesTo_S500000x16_S_d0_1 : S500000x16.ReducesTo [0, 1] S_
  h_S_ : 0 < S_.numel
  bcast_S_S27x16x16 : S_.BroadcastsInDim S27x16x16 (![] : Fin 0 → Fin S27x16x16.rank)
  reducesTo_S27x16x16_S_d0_1_2 : S27x16x16.ReducesTo [0, 1, 2] S_
  bcast_S_S16 : S_.BroadcastsInDim S16 (![] : Fin 0 → Fin S16.rank)
  reducesTo_S16_S_d0 : S16.ReducesTo [0] S_

variable [Facts]

def fn {F : FTy → Type} [FloatOps F] (main_arg0 : FVec F S500000x16 .f32) (main_arg1 : FVec F S27x16x16 .f32) (main_arg2 : FVec F S16 .f32) (main_arg3 : IVec S27x250000 32) (main_arg4 : IVec S27x250000 32) : IVec S_ 1 :=
  let main_v0 : FVec F S500000x16 .f32 := Host.absf main_arg0
  let main_cst : FVec F S_ .f32 := constant S_ .f32 0x7F800000#32
  let main_v1 : FVec F S500000x16 .f32 := broadcastInDim S500000x16 ![] bcast_S_S500000x16 main_cst
  let main_v2 : IVec S500000x16 1 := cmpf .olt main_v0 main_v1
  let main_c : IVec S_ 1 := constantI S_ 1 1#1
  let main_v3 : IVec S_ 1 := (fun x v => Host.reduce IntOp.andi x v reducesTo_S500000x16_S_d0_1 h_S_) main_v2 main_c
  let main_v4 : FVec F S27x16x16 .f32 := Host.absf main_arg1
  let main_cst_0 : FVec F S_ .f32 := constant S_ .f32 0x7F800000#32
  let main_v5 : FVec F S27x16x16 .f32 := broadcastInDim S27x16x16 ![] bcast_S_S27x16x16 main_cst_0
  let main_v6 : IVec S27x16x16 1 := cmpf .olt main_v4 main_v5
  let main_c_1 : IVec S_ 1 := constantI S_ 1 1#1
  let main_v7 : IVec S_ 1 := (fun x v => Host.reduce IntOp.andi x v reducesTo_S27x16x16_S_d0_1_2 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S500000x16 : Shape := ⟨2, ![500000, 16]⟩
abbrev S27x16x16 : Shape := ⟨3, ![27, 16, 16]⟩
abbrev S16 : Shape := ⟨1, ![16]⟩
abbrev S27x250000 : Shape := ⟨2, ![27, 250000]⟩
abbrev S_ : Shape := ⟨0, ![]⟩
abbrev S27x250000x1 : Shape := ⟨3, ![27, 250000, 1]⟩
abbrev S27x250000x16 : Shape := ⟨3, ![27, 250000, 16]⟩
abbrev S1x10000x16 : Shape := ⟨3, ![1, 10000, 16]⟩
abbrev S1x16x16 : Shape := ⟨3, ![1, 16, 16]⟩
abbrev S10000x16 : Shape := ⟨2, ![10000, 16]⟩
abbrev S16x16 : Shape := ⟨2, ![16, 16]⟩
abbrev S6750000 : Shape := ⟨1, ![6750000]⟩
abbrev S6750000x16 : Shape := ⟨2, ![6750000, 16]⟩
abbrev S6750000x1 : Shape := ⟨2, ![6750000, 1]⟩

abbrev nBuf : Space → Nat
  | .hbm => 29
  | .vmem => 6
  | .smem => 0
  | _ => 0

abbrev bufTy : (tb : Table) → Fin (tcTables nBuf tb) → BufTy
  | .hbm, ⟨0, _⟩ => ⟨S500000x16, .f32⟩
  | .hbm, ⟨1, _⟩ => ⟨S27x16x16, .f32⟩
  | .hbm, ⟨2, _⟩ => ⟨S16, .f32⟩
  | .hbm, ⟨3, _⟩ => ⟨S27x250000, .i32⟩
  | .hbm, ⟨4, _⟩ => ⟨S27x250000, .i32⟩
  | .hbm, ⟨5, _⟩ => ⟨S500000x16, .bf16⟩
  | .hbm, ⟨6, _⟩ => ⟨S27x16x16, .bf16⟩
  | .hbm, ⟨7, _⟩ => ⟨S_, .i32⟩
  | .hbm, ⟨8, _⟩ => ⟨S27x250000, .i32⟩
  | .hbm, ⟨9, _⟩ => ⟨S27x250000, .i1⟩
  | .hbm, ⟨10, _⟩ => ⟨S_, .i32⟩
  | .hbm, ⟨11, _⟩ => ⟨S27x250000, .i32⟩
  | .hbm, ⟨12, _⟩ => ⟨S27x250000, .i32⟩
  | .hbm, ⟨13, _⟩ => ⟨S27x250000, .i32⟩
  | .hbm, ⟨14, _⟩ => ⟨S27x250000x1, .i32⟩
  | .hbm, ⟨15, _⟩ => ⟨S27x250000x16, .bf16⟩
  | .hbm, ⟨16, _⟩ => ⟨S27x250000x16, .f32⟩
  | .hbm, ⟨17, _⟩ => ⟨S500000x16, .f32⟩
  | .hbm, ⟨18, _⟩ => ⟨S6750000, .i32⟩
  | .hbm, ⟨19, _⟩ => ⟨S6750000x16, .f32⟩
  | .hbm, ⟨20, _⟩ => ⟨S_, .i32⟩
  | .hbm, ⟨21, _⟩ => ⟨S6750000, .i32⟩
  | .hbm, ⟨22, _⟩ => ⟨S6750000, .i1⟩
  | .hbm, ⟨23, _⟩ => ⟨S_, .i32⟩
  | .hbm, ⟨24, _⟩ => ⟨S6750000, .i32⟩
  | .hbm, ⟨25, _⟩ => ⟨S6750000, .i32⟩
  | .hbm, ⟨26, _⟩ => ⟨S6750000, .i32⟩
  | .hbm, ⟨27, _⟩ => ⟨S6750000x1, .i32⟩
  | .hbm, ⟨28, _⟩ => ⟨S500000x16, .f32⟩
  | .local _ .vmem, ⟨0, _⟩ => ⟨S1x10000x16, .bf16⟩
  | .local _ .vmem, ⟨1, _⟩ => ⟨S1x10000x16, .bf16⟩
  | .local _ .vmem, ⟨2, _⟩ => ⟨S1x16x16, .bf16⟩
  | .local _ .vmem, ⟨3, _⟩ => ⟨S1x16x16, .bf16⟩
  | .local _ .vmem, ⟨4, _⟩ => ⟨S1x10000x16, .f32⟩
  | .local _ .vmem, ⟨5, _⟩ => ⟨S1x10000x16, .f32⟩
  | _, _ => ⟨S500000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![27, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x10000x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  bcast_S_S27x250000 : S_.BroadcastsInDim S27x250000 (![] : Fin 0 → Fin S27x250000.rank)
  bcast_S27x250000_S27x250000x1_0_1 : S27x250000.BroadcastsInDim S27x250000x1 (![0, 1] : Fin 2 → Fin S27x250000x1.rank)
  inb_S1x10000x16_S1x10000x16_0_0_0 : ∀ a, (![0, 0, 0] : Fin 3 → Nat) a + S1x10000x16.size a ≤ S1x10000x16.size a
  h_S1x10000x16 : 0 < S1x10000x16.numel
  shapeCasts_S1x10000x16_S10000x16 : S1x10000x16.ShapeCasts S10000x16
  inb_S1x16x16_S1x16x16_0_0_0 : ∀ a, (![0, 0, 0] : Fin 3 → Nat) a + S1x16x16.size a ≤ S1x16x16.size a
  h_S1x16x16 : 0 < S1x16x16.numel
  shapeCasts_S1x16x16_S16x16 : S1x16x16.ShapeCasts S16x16
  shapeCasts_S10000x16_S1x10000x16 : S10000x16.ShapeCasts S1x10000x16
  bcast_S16_S500000x16_1 : S16.BroadcastsInDim S500000x16 (![1] : Fin 1 → Fin S500000x16.rank)
  shapeCasts_S27x250000_S6750000 : S27x250000.ShapeCasts S6750000
  shapeCasts_S27x250000x16_S6750000x16 : S27x250000x16.ShapeCasts S6750000x16
  bcast_S_S6750000 : S_.BroadcastsInDim S6750000 (![] : Fin 0 → Fin S6750000.rank)
  bcast_S6750000_S6750000x1_0 : S6750000.BroadcastsInDim S6750000x1 (![0] : Fin 1 → Fin S6750000x1.rank)
  gather_S500000x16_S27x250000x1_S27x250000x16_2_0_n_n_0_2_116_wf : GatherDims.WF S500000x16 S27x250000x1 S27x250000x16 [2] [0] [] [0] [] 2 ![1, 16]
  dot_S10000x16_S16x16_S10000x16_1_0_0_1_n_n_wf : DotDims.WF S10000x16 S16x16 S10000x16 [1] [0] [0] [1] [] []
  scatter_S500000x16_S6750000x1_S6750000x16_1_0_0_1_wf : ScatterDims.WF S500000x16 S6750000x1 S6750000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x16.size a ≤ S27x250000x16.size a
  hwx0_0 : ∀ i : grid0.Coords, EltTy.bits .bf16 = 32 ∨ (Rect.block (s := S27x250000x16) S1x10000x16.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x16.size a ≤ S27x16x16.size a
  hwx0_1 : ∀ i : grid0.Coords, EltTy.bits .bf16 = 32 ∨ (Rect.block (s := S27x16x16) S1x16x16.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10000x16.size a ≤ S27x250000x16.size a
  hwx0_2 : ∀ i : grid0.Coords, EltTy.bits .f32 = 32 ∨ (Rect.block (s := S27x250000x16) S1x10000x16.size (cc0_transform_2 i) (hinb0_2 i)).WholeWords (EltTy.packing .f32)

variable [Facts₀]

def gather_S500000x16_S27x250000x1_S27x250000x16_2_0_n_n_0_2_116 : GatherDims S500000x16 S27x250000x1 S27x250000x16 where
  offsetDims := [2]
  collapsedSliceDims := [0]
  operandBatchingDims := []
  startIndicesBatchingDims := []
  startIndexMap := [0]
  indexVectorDim := 2
  sliceSizes := ![1, 16]
  wf := gather_S500000x16_S27x250000x1_S27x250000x16_2_0_n_n_0_2_116_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def scatter_S500000x16_S6750000x1_S6750000x16_1_0_0_1 : ScatterDims S500000x16 S6750000x1 S6750000x16 where
  updateWindowDims := [1]
  insertedWindowDims := [0]
  scatterDimsToOperandDims := [0]
  indexVectorDim := 1
  wf := scatter_S500000x16_S6750000x1_S6750000x16_1_0_0_1_wf

abbrev win0_0 : Pipeline.Window sig grid0 :=
  Pipeline.Window.ofSpec (Memref.whole main_v8) S1x10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000x16 : Shape := ⟨2, ![500000, 16]⟩
abbrev S27x16x16 : Shape := ⟨3, ![27, 16, 16]⟩
abbrev S16 : Shape := ⟨1, ![16]⟩
abbrev S27x250000 : Shape := ⟨2, ![27, 250000]⟩
abbrev S_ : Shape := ⟨0, ![]⟩
abbrev S27x250000x1 : Shape := ⟨3, ![27, 250000, 1]⟩
abbrev S27x250000x16 : Shape := ⟨3, ![27, 250000, 16]⟩
abbrev S6750000 : Shape := ⟨1, ![6750000]⟩
abbrev S6750000x16 : Shape := ⟨2, ![6750000, 16]⟩
abbrev S6750000x1 : Shape := ⟨2, ![6750000, 1]⟩

abbrev nBuf : Space → Nat
  | .hbm => 27
  | .vmem => 0
  | .smem => 0
  | _ => 0

abbrev bufTy : (tb : Table) → Fin (tcTables nBuf tb) → BufTy
  | .hbm, ⟨0, _⟩ => ⟨S500000x16, .f32⟩
  | .hbm, ⟨1, _⟩ => ⟨S27x16x16, .f32⟩
  | .hbm, ⟨2, _⟩ => ⟨S16, .f32⟩
  | .hbm, ⟨3, _⟩ => ⟨S27x250000, .i32⟩
  | .hbm, ⟨4, _⟩ => ⟨S27x250000, .i32⟩
  | .hbm, ⟨5, _⟩ => ⟨S_, .i32⟩
  | .hbm, ⟨6, _⟩ => ⟨S27x250000, .i32⟩
  | .hbm, ⟨7, _⟩ => ⟨S27x250000, .i1⟩
  | .hbm, ⟨8, _⟩ => ⟨S_, .i32⟩
  | .hbm, ⟨9, _⟩ => ⟨S27x250000, .i32⟩
  | .hbm, ⟨10, _⟩ => ⟨S27x250000, .i32⟩
  | .hbm, ⟨11, _⟩ => ⟨S27x250000, .i32⟩
  | .hbm, ⟨12, _⟩ => ⟨S27x250000x1, .i32⟩
  | .hbm, ⟨13, _⟩ => ⟨S27x250000x16, .f32⟩
  | .hbm, ⟨14, _⟩ => ⟨S27x250000x16, .f32⟩
  | .hbm, ⟨15, _⟩ => ⟨S500000x16, .f32⟩
  | .hbm, ⟨16, _⟩ => ⟨S6750000, .i32⟩
  | .hbm, ⟨17, _⟩ => ⟨S6750000x16, .f32⟩
  | .hbm, ⟨18, _⟩ => ⟨S_, .i32⟩
  | .hbm, ⟨19, _⟩ => ⟨S6750000, .i32⟩
  | .hbm, ⟨20, _⟩ => ⟨S6750000, .i1⟩
  | .hbm, ⟨21, _⟩ => ⟨S_, .i32⟩
  | .hbm, ⟨22, _⟩ => ⟨S6750000, .i32⟩
  | .hbm, ⟨23, _⟩ => ⟨S6750000, .i32⟩
  | .hbm, ⟨24, _⟩ => ⟨S6750000, .i32⟩
  | .hbm, ⟨25, _⟩ => ⟨S6750000x1, .i32⟩
  | .hbm, ⟨26, _⟩ => ⟨S500000x16, .f32⟩
  | _, _ => ⟨S500000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S27x250000 : S_.BroadcastsInDim S27x250000 (![] : Fin 0 → Fin S27x250000.rank)
  bcast_S27x250000_S27x250000x1_0_1 : S27x250000.BroadcastsInDim S27x250000x1 (![0, 1] : Fin 2 → Fin S27x250000x1.rank)
  bcast_S16_S500000x16_1 : S16.BroadcastsInDim S500000x16 (![1] : Fin 1 → Fin S500000x16.rank)
  shapeCasts_S27x250000_S6750000 : S27x250000.ShapeCasts S6750000
  shapeCasts_S27x250000x16_S6750000x16 : S27x250000x16.ShapeCasts S6750000x16
  bcast_S_S6750000 : S_.BroadcastsInDim S6750000 (![] : Fin 0 → Fin S6750000.rank)
  bcast_S6750000_S6750000x1_0 : S6750000.BroadcastsInDim S6750000x1 (![0] : Fin 1 → Fin S6750000x1.rank)
  gather_S500000x16_S27x250000x1_S27x250000x16_2_0_n_n_0_2_116_wf : GatherDims.WF S500000x16 S27x250000x1 S27x250000x16 [2] [0] [] [0] [] 2 ![1, 16]
  dot_S27x250000x16_S27x16x16_S27x250000x16_2_1_1_2_0_0_wf : DotDims.WF S27x250000x16 S27x16x16 S27x250000x16 [2] [1] [1] [2] [0] [0]
  scatter_S500000x16_S6750000x1_S6750000x16_1_0_0_1_wf : ScatterDims.WF S500000x16 S6750000x1 S6750000x16 [1] [0] [0] 1

variable [Facts₀]

def gather_S500000x16_S27x250000x1_S27x250000x16_2_0_n_n_0_2_116 : GatherDims S500000x16 S27x250000x1 S27x250000x16 where
  offsetDims := [2]
  collapsedSliceDims := [0]
  operandBatchingDims := []
  startIndicesBatchingDims := []
  startIndexMap := [0]
  indexVectorDim := 2
  sliceSizes := ![1, 16]
  wf := gather_S500000x16_S27x250000x1_S27x250000x16_2_0_n_n_0_2_116_wf
def dot_S27x250000x16_S27x16x16_S27x250000x16_2_1_1_2_0_0 : DotDims S27x250000x16 S27x16x16 S27x250000x16 where
  lhsContracting := [2]
  rhsContracting := [1]
  lhsNonContracting := [1]
  rhsNonContracting := [2]
  lhsBatch := [0]
  rhsBatch := [0]
  wf := dot_S27x250000x16_S27x16x16_S27x250000x16_2_1_1_2_0_0_wf
def scatter_S500000x16_S6750000x1_S6750000x16_1_0_0_1 : ScatterDims S500000x16 S6750000x1 S6750000x16 where
  updateWindowDims := [1]
  insertedWindowDims := [0]
  scatterDimsToOperandDims := [0]
  indexVectorDim := 1
  wf := scatter_S500000x16_S6750000x1_S6750000x16_1_0_0_1_wf

class Facts : Prop extends Facts₀ where

variable [Facts]
-- ==== Proof.Contract.lean ====
/-
  The per-offset product of a sparse convolution, as one function of two arrays.

  A rule book lists, for each of the 27 filter offsets k, 250000 pairs r of an input site and an output
  site. Once the input rows have been gathered, g[k, r, c] is channel c of the input site of pair r of
  offset k, and w[k, c, o] is the filter. What pair r of offset k contributes to output channel o is the
  inner product over the sixteen input channels,

      (g ⋆ w)[k, r, o] = Σ_c g[k, r, c] · w[k, c, o].

  On the extended reals this is a finite sum in a commutative monoid: it does not depend on how the pairs
  are cut into tiles, nor on the order in which the sixteen products are added, and it needs no finiteness
  of the entries.
-/
import Idealize.ShloMosaic.PureOps.Ideal
import Idealize.ShloMosaic.Lib.ValueIdx

noncomputable section

namespace Cert.SparseConv

open Idealize.ShloMosaic Idealize.ShloMosaic.ValueIdx

/-- The gathered rows and the contributions: offset × pair × channel. -/
abbrev Rows : Shape := ⟨3, ![27, 250000, 16]⟩
/-- The filter: offset × input channel × output channel. -/
abbrev Filt : Shape := ⟨3, ![27, 16, 16]⟩

/-- `(g ⋆ w)[k, r, o] = Σ_c g[k, r, c] · w[k, c, o]`, the index `i = (k, r, o)` read coordinate by coordinate. -/
def contract (g : Rows.Idx → EReal) (w : Filt.Idx → EReal) : Rows.Idx → EReal := fun i =>
  ∑ c : Fin 16, g (ix3 ⟨(i 0).val, (i 0).isLt⟩ ⟨(i 1).val, (i 1).isLt⟩ c) * w (ix3 ⟨(i 0).val, (i 0).isLt⟩ c ⟨(i 2).val, (i 2).isLt⟩)

/-- The same at an index whose coordinates are known as numbers: offset `k`, pair `r`, output channel `o`. -/
theorem contract_apply (g : Rows.Idx → EReal) (w : Filt.Idx → EReal) (i : Rows.Idx) (k : Fin 27) (r : Fin 250000) (o : Fin 16)
    (h0 : (i 0).val = k.val) (h1 : (i 1).val = r.val) (h2 : (i 2).val = o.val) :
    contract g w i = ∑ c : Fin 16, g (ix3 k r c) * w (ix3 k c o) := by
  have hk : (⟨(i 0).val, (i 0).isLt⟩ : Fin 27) = k := Fin.ext h0
  have hr : (⟨(i 1).val, (i 1).isLt⟩ : Fin 250000) = r := Fin.ext h1
  have ho : (⟨(i 2).val, (i 2).isLt⟩ : Fin 16) = o := Fin.ext h2
  unfold contract
  rw [hk, hr, ho]

end Cert.SparseConv

end
-- ==== Proof.TileProduct.lean ====
/-
  What one grid point of the kernel computes, read at an index.

  The body loads a tile of 10000 gathered rows (as a [1, 10000, 16] block) and the 16 × 16 filter of the
  tile's offset (as a [1, 16, 16] block), drops the leading unit axes, multiplies the two matrices into a
  zero accumulator, and puts the unit axis back. So entry (0, r, o) of what it stores is

      0 + Σ_c x0[0, r, c] · x1[0, c, o] = Σ_c x0[0, r, c] · x1[0, c, o]

  on the extended reals (the accumulator's zero word is the real number 0, and 0 + s = s there).
-/
import proofs.«155002_j10934986735759_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-- The body's matrix product: rows × channels times channels × channels, contracting the lhs's axis 1 with the rhs's axis 0. -/
abbrev D : DotDims S10000x16 S16x16 S10000x16 := dot_S10000x16_S16x16_S10000x16_1_0_0_1_n_n

/-! The operand indices of the product at output index `j = (r, o)` and contraction index `q`: (r, q) and (q, o). -/

theorem lhs_row (j : S10000x16.Idx) (q : D.contr.Idx) : (D.lhsIdx j q 0).val = (j 0).val := by
  unfold DotDims.lhsIdx
  rw [dif_neg (show ¬(0 : Fin S10000x16.rank) ∈ D.lhsBatch by decide), dif_pos (show (0 : Fin S10000x16.rank) ∈ D.lhsNonContracting by decide)]
  rfl
theorem lhs_col (j : S10000x16.Idx) (q : D.contr.Idx) : (D.lhsIdx j q 1).val = (q ⟨0, by decide⟩).val :=
  D.lhsIdx_val_of_single rfl j q
theorem rhs_row (j : S10000x16.Idx) (q : D.contr.Idx) : (D.rhsIdx j q 0).val = (q ⟨0, by decide⟩).val :=
  D.rhsIdx_val_of_single rfl j q
theorem rhs_col (j : S10000x16.Idx) (q : D.contr.Idx) : (D.rhsIdx j q 1).val = (j 1).val := by
  unfold DotDims.rhsIdx
  rw [dif_neg (show ¬(1 : Fin S16x16.rank) ∈ D.rhsBatch by decide), dif_pos (show (1 : Fin S16x16.rank) ∈ D.rhsNonContracting by decide)]
  rfl

/-- The matrix product into the zero accumulator, at entry (r, o): the sum over the sixteen channels. -/
theorem matmul_zero_apply (a : FVec Ideal S10000x16 .bf16) (b : FVec Ideal S16x16 .bf16) (r : Fin 10000) (o : Fin 16) :
    matmul D none a b (constant (F := Ideal) S10000x16 .f32 0x00000000#32) (ix2 r o) = ∑ c : Fin 16, a (ix2 r c) * b (ix2 c o) := by
  refine (Ideal.matmul_constant_zero_apply D none a b (ix2 r o)).trans ?_
  rw [← Equiv.sum_comp (contrEquiv1 D 16 rfl rfl).symm]
  refine Finset.sum_congr rfl fun c _ => ?_
  have hc := contrEquiv1_symm_val D 16 rfl rfl c
  have el : D.lhsIdx (ix2 r o) ((contrEquiv1 D 16 rfl rfl).symm c) = ix2 r c := funext fun a => Fin.ext (by
    match a with
    | ⟨0, _⟩ => exact lhs_row _ _
    | ⟨1, _⟩ => exact (lhs_col _ _).trans hc)
  have er : D.rhsIdx (ix2 r o) ((contrEquiv1 D 16 rfl rfl).symm c) = ix2 c o := funext fun a => Fin.ext (by
    match a with
    | ⟨0, _⟩ => exact (rhs_row _ _).trans hc
    | ⟨1, _⟩ => exact rhs_col _ _)
  rw [el, er]

/-- Dropping the leading unit axis of a [1, 10000, 16] block: entry (r, c) is entry (0, r, c). -/
theorem rows_drop (x0 : FVec Ideal S1x10000x16 .bf16) (r : Fin 10000) (c : Fin 16) :
    shapeCast S10000x16 x0 shapeCasts_S1x10000x16_S10000x16 (ix2 r c) = x0 (ix3 (0 : Fin 1) r c) :=
  shapeCast_apply x0 shapeCasts_S1x10000x16_S10000x16 (ix2 r c) (ix3 (0 : Fin 1) r c) (by
    rewrite [Shape.rowMajor_val_three, Shape.rowMajor_val_two]
    show (0 * 10000 + r.val) * 16 + c.val = r.val * 16 + c.val
    omega)

/-- Dropping the leading unit axis of a [1, 16, 16] block: entry (c, o) is entry (0, c, o). -/
theorem filt_drop (x1 : FVec Ideal S1x16x16 .bf16) (c o : Fin 16) :
    shapeCast S16x16 x1 shapeCasts_S1x16x16_S16x16 (ix2 c o) = x1 (ix3 (0 : Fin 1) c o) :=
  shapeCast_apply x1 shapeCasts_S1x16x16_S16x16 (ix2 c o) (ix3 (0 : Fin 1) c o) (by
    rewrite [Shape.rowMajor_val_three, Shape.rowMajor_val_two]
    show (0 * 16 + c.val) * 16 + o.val = c.val * 16 + o.val
    omega)

/-- WHAT THE BODY STORES, at entry (0, r, o): the inner product of row r of the tile with column o of the filter. -/
theorem stored_apply (x0 : FVec Ideal S1x10000x16 .bf16) (x1 : FVec Ideal S1x16x16 .bf16) (r : Fin 10000) (o : Fin 16) :
    k0_pay1 (F := Ideal) x0 x1 (ix3 (0 : Fin 1) r o) = ∑ c : Fin 16, x0 (ix3 (0 : Fin 1) r c) * x1 (ix3 (0 : Fin 1) c o) := by
  unfold k0_pay1
  refine (shapeCast_apply _ shapeCasts_S10000x16_S1x10000x16 (ix3 (0 : Fin 1) r o) (ix2 r o) (by
    rewrite [Shape.rowMajor_val_three, Shape.rowMajor_val_two]
    show r.val * 16 + o.val = (0 * 10000 + r.val) * 16 + o.val
    omega)).trans ?_
  refine (matmul_zero_apply _ _ r o).trans ?_
  exact Finset.sum_congr rfl fun c _ => by rw [rows_drop, filt_drop]

end Cert.KernelIdeal.Tile

end
-- ==== Proof.Blocks.lean ====
/-
  From tiles to the whole array of contributions.

  The grid has 27 × 25 points. Point t works on offset k = t / 25 and on row tile b = t % 25: it reads rows
  10000·b … 10000·b + 9999 of offset k of the gathered array and the filter of offset k, and writes back rows
  10000·b … 10000·b + 9999 of offset k of the result. A tile's entry (0, r, o) is therefore the array's entry
  (k, 10000·b + r, o), and the inner product the body stores there is (g ⋆ w)[k, 10000·b + r, o]: every point
  writes back a block of ONE function of the two arrays. Since 25 tiles of 10000 rows are exactly the 250000
  pairs of an offset, the blocks cover the result, which therefore ends as g ⋆ w.
-/
import proofs.«155002_j10934986735759_2_alg».proof.Proof.Gen.KernelIdeal.Frame
import proofs.«155002_j10934986735759_2_alg».proof.Proof.Contract
import proofs.«155002_j10934986735759_2_alg».proof.Proof.TileProduct
import Idealize.ShloMosaic.Lib.Pipeline.Value

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)
open Cert.SparseConv (contract contract_apply)

variable (m : (ℓ : Loc nD τ sig) → Buf (Elt Ideal) ℓ) (ρ : Dev nD → PrngReg)

theorem origin : (![0, 0, 0] : Fin 3 → Nat) = fun _ => 0 := funext fun a => by fin_cases a <;> rfl

/-- The three windows' block indices at point `t`, in closed form: the rows window and the result window sit at
    (offset t / 25, row tile t % 25, 0), the filter window at (offset t / 25, 0, 0). Decided over the 675 points. -/
theorem index_closed : ∀ t : Fin cfg0.N,
    win0_2.index t (0 : Fin 3) = t.val / 25 ∧ win0_2.index t (1 : Fin 3) = t.val % 25 ∧ win0_2.index t (2 : Fin 3) = 0
    ∧ win0_0.index t (0 : Fin 3) = t.val / 25 ∧ win0_0.index t (1 : Fin 3) = t.val % 25 ∧ win0_0.index t (2 : Fin 3) = 0
    ∧ win0_1.index t (0 : Fin 3) = t.val / 25 ∧ win0_1.index t (1 : Fin 3) = 0 ∧ win0_1.index t (2 : Fin 3) = 0 :=
  (by decide +kernel : ∀ t : Fin grid0.N, _)

/-- Entry `y` of the rows tile at point `t` is the gathered array at (t / 25, 10000·(t % 25) + y₁, y₂). -/
theorem rows_tile_apply (c : Dev nD) (t : Fin cfg0.N) (y : S1x10000x16.Idx) (i : S27x250000x16.Idx)
    (h0 : (i 0).val = t.val / 25) (h1 : (i 1).val = t.val % 25 * 10000 + (y 1).val) (h2 : (i 2).val = (y 2).val) :
    (iblk m c 0 t : Vec Ideal S1x10000x16 .bf16) y = (V m c main_v8 : S27x250000x16.Idx → EReal) i := by
  obtain ⟨-, -, -, e0, e1, e2, -, -, -⟩ := index_closed t
  have hy0 : (y 0).val < 1 := (y 0).isLt
  unfold iblk
  rw [View.read_apply]
  show V m c main_v8 _ = V m c main_v8 _
  refine congrArg (V m c main_v8) ?_
  funext a
  apply Fin.ext
  match a with
  | ⟨0, _⟩ => show win0_0.index t (0 : Fin 3) * 1 + 1 * (y 0).val = (i 0).val; rw [e0, h0]; omega
  | ⟨1, _⟩ => show win0_0.index t (1 : Fin 3) * 10000 + 1 * (y 1).val = (i 1).val; rw [e1, h1]; omega
  | ⟨2, _⟩ => show win0_0.index t (2 : Fin 3) * 16 + 1 * (y 2).val = (i 2).val; rw [e2, h2]; omega

/-- Entry `y` of the filter tile at point `t` is the filter at (t / 25, y₁, y₂). -/
theorem filt_tile_apply (c : Dev nD) (t : Fin cfg0.N) (y : S1x16x16.Idx) (i : S27x16x16.Idx)
    (h0 : (i 0).val = t.val / 25) (h1 : (i 1).val = (y 1).val) (h2 : (i 2).val = (y 2).val) :
    (iblk m c 1 t : Vec Ideal S1x16x16 .bf16) y = (V m c main_v1 : S27x16x16.Idx → EReal) i := by
  obtain ⟨-, -, -, -, -, -, e0, e1, e2⟩ := index_closed t
  have hy0 : (y 0).val < 1 := (y 0).isLt
  unfold iblk
  rw [View.read_apply]
  show V m c main_v1 _ = V m c main_v1 _
  refine congrArg (V m c main_v1) ?_
  funext a
  apply Fin.ext
  match a with
  | ⟨0, _⟩ => show win0_1.index t (0 : Fin 3) * 1 + 1 * (y 0).val = (i 0).val; rw [e0, h0]; omega
  | ⟨1, _⟩ => show win0_1.index t (1 : Fin 3) * 16 + 1 * (y 1).val = (i 1).val; rw [e1, h1]; omega
  | ⟨2, _⟩ => show win0_1.index t (2 : Fin 3) * 16 + 1 * (y 2).val = (i 2).val; rw [e2, h2]; omega

/-- What the body stores at entry `y` of the tile of point `t` is `g ⋆ w` at the array index `i` that entry sits at. -/
theorem stored_eq (c : Dev nD) (t : Fin cfg0.N) (y : S1x10000x16.Idx) (i : S27x250000x16.Idx)
    (h0 : (i 0).val = t.val / 25) (h1 : (i 1).val = t.val % 25 * 10000 + (y 1).val) (h2 : (i 2).val = (y 2).val) :
    k0_pay1 (F := Ideal) (iblk m c 0 t) (iblk m c 1 t) y = contract (V m c main_v8) (V m c main_v1) i := by
  have hN : cfg0.N = 675 := N_0
  have ht : t.val < 675 := hN ▸ t.isLt
  have hy0 : (y 0).val < 1 := (y 0).isLt
  have hy1 : (y 1).val < 10000 := (y 1).isLt
  have hy2 : (y 2).val < 16 := (y 2).isLt
  obtain ⟨r, o, rfl⟩ : ∃ (r : Fin 10000) (o : Fin 16), y = ix3 (0 : Fin 1) r o :=
    ⟨⟨(y 1).val, hy1⟩, ⟨(y 2).val, hy2⟩, funext fun a => Fin.ext (by
      match a with
      | ⟨0, _⟩ => show (y 0).val = 0; omega
      | ⟨1, _⟩ => rfl
      | ⟨2, _⟩ => rfl)⟩
  refine (Tile.stored_apply (iblk m c 0 t) (iblk m c 1 t) r o).trans ?_
  rw [contract_apply _ _ i ⟨t.val / 25, by omega⟩ ⟨t.val % 25 * 10000 + r.val, by omega⟩ o h0 h1 h2]
  refine Finset.sum_congr rfl fun k _ => ?_
  have e0 := rows_tile_apply m c t (ix3 (0 : Fin 1) r k)
    (ix3 (⟨t.val / 25, by omega⟩ : Fin 27) (⟨t.val % 25 * 10000 + r.val, by omega⟩ : Fin 250000) k) rfl rfl rfl
  have e1 := filt_tile_apply m c t (ix3 (0 : Fin 1) k o) (ix3 (⟨t.val / 25, by omega⟩ : Fin 27) k o) rfl rfl rfl
  rw [e0, e1]

/-- WHAT POINT `t` WRITES BACK is block `t` of `g ⋆ w`, of the two arrays as the kernel finds them. -/
theorem flushed_eq (c : Dev nD) (t : Fin cfg0.N) :
    (dats m 0 c).flushed 2 t = ((cfg0.win 2).blk t).view.read (Elt Ideal) (contract (V m c main_v8) (V m c main_v1)) := by
  show (cfg0.win 2).cut (grid0.coords t) ((dats m 0 c).after 2 t) = _
  rw [after0_2]
  unfold out0_2
  rw [View.canon_unit_zero origin]
  simp only [View.ld_unit_zero (S := S1x10000x16) origin, View.ld_unit_zero (S := S1x16x16) origin]
  obtain ⟨e0, e1, e2, -⟩ := index_closed t
  funext y
  show k0_pay1 (F := Ideal) (iblk m c 0 t) (iblk m c 1 t) y
    = contract (V m c main_v8) (V m c main_v1) (((cfg0.win 2).blk t).view.emb y)
  have hy0 : (y 0).val < 1 := (y 0).isLt
  refine stored_eq m c t y _ ?_ ?_ ?_
  · show win0_2.index t (0 : Fin 3) * 1 + 1 * (y 0).val = t.val / 25; rw [e0]; omega
  · show win0_2.index t (1 : Fin 3) * 10000 + 1 * (y 1).val = t.val % 25 * 10000 + (y 1).val; rw [e1]; omega
  · show win0_2.index t (2 : Fin 3) * 16 + 1 * (y 2).val = (y 2).val; rw [e2]; omega

/-- An index of the result is in point `t`'s block iff each coordinate is in the block's range on its axis. -/
theorem mem_tile (t : Fin cfg0.N) (i : S27x250000x16.Idx) :
    i ∈ ((cfg0.win 2).blk t).view.set ↔ ∀ a : Fin 3, win0_2.index t a * S1x10000x16.size a ≤ (i a).val
      ∧ (i a).val < win0_2.index t a * S1x10000x16.size a + S1x10000x16.size a := by
  show i ∈ ((View.whole main_v9).slice (win0_2.rect t)).set ↔ _
  rw [View.set_slice_whole, Rect.mem_set_unit]
  exact Iff.rfl

/-- Every index (k, p, o) of the result is in the block of point 25·k + p / 10000, and every point writes back. -/
theorem covered (i : S27x250000x16.Idx) :
    ∃ t : Fin cfg0.N, (cfg0.win 2).flush t = true ∧ i ∈ ((cfg0.win 2).blk t).view.set := by
  have hi0 : (i 0).val < 27 := (i 0).isLt
  have hi1 : (i 1).val < 250000 := (i 1).isLt
  have hi2 : (i 2).val < 16 := (i 2).isLt
  have hN : cfg0.N = 675 := N_0
  have hlt : (i 0).val * 25 + (i 1).val / 10000 < cfg0.N := by rw [hN]; omega
  obtain ⟨e0, e1, e2, -⟩ := index_closed ⟨(i 0).val * 25 + (i 1).val / 10000, hlt⟩
  have d0 : ((i 0).val * 25 + (i 1).val / 10000) / 25 = (i 0).val := by omega
  have d1 : ((i 0).val * 25 + (i 1).val / 10000) % 25 = (i 1).val / 10000 := by omega
  refine ⟨⟨(i 0).val * 25 + (i 1).val / 10000, hlt⟩, flush0_2 _, ?_⟩
  rw [mem_tile]
  intro a
  match a with
  | ⟨0, _⟩ =>
    show win0_2.index ⟨(i 0).val * 25 + (i 1).val / 10000, hlt⟩ (0 : Fin 3) * 1 ≤ (i 0).val
      ∧ (i 0).val < win0_2.index ⟨(i 0).val * 25 + (i 1).val / 10000, hlt⟩ (0 : Fin 3) * 1 + 1
    rw [e0]; show ((i 0).val * 25 + (i 1).val / 10000) / 25 * 1 ≤ _ ∧ _ < ((i 0).val * 25 + (i 1).val / 10000) / 25 * 1 + 1
    rw [d0]; omega
  | ⟨1, _⟩ =>
    show win0_2.index ⟨(i 0).val * 25 + (i 1).val / 10000, hlt⟩ (1 : Fin 3) * 10000 ≤ (i 1).val
      ∧ (i 1).val < win0_2.index ⟨(i 0).val * 25 + (i 1).val / 10000, hlt⟩ (1 : Fin 3) * 10000 + 10000
    rw [e1]; show ((i 0).val * 25 + (i 1).val / 10000) % 25 * 10000 ≤ _ ∧ _ < ((i 0).val * 25 + (i 1).val / 10000) % 25 * 10000 + 10000
    rw [d1]; omega
  | ⟨2, _⟩ =>
    show win0_2.index ⟨(i 0).val * 25 + (i 1).val / 10000, hlt⟩ (2 : Fin 3) * 16 ≤ (i 2).val
      ∧ (i 2).val < win0_2.index ⟨(i 0).val * 25 + (i 1).val / 10000, hlt⟩ (2 : Fin 3) * 16 + 16
    rw [e2]; omega

/-- THE RESULT OF THE KERNEL: after the last point the array of contributions is `g ⋆ w` of the gathered rows and
    the filter as the kernel finds them. -/
theorem contributions (c : Dev nD) :
    (dats m 0 c).arrAt 2 cfg0.N = contract (V m c main_v8) (V m c main_v1) :=
  (dats m 0 c).arrAt_eq_of_cover 2 (contract (V m c main_v8) (V m c main_v1)) (fun t _ => flushed_eq m c t) covered

end Cert.KernelIdeal.Tiles

end
-- ==== Proof.WholeSpec.lean ====
/-
  The whole sparse convolution as one function of the five arguments.

  With features x[n, c], filter w[k, c, o], bias b[o] and the rule book's input sites s_in[k, r] and output sites
  s_out[k, r] (a negative site counts from the end):

    1. gather the input rows:     g[k, r, c] = x[s_in[k, r], c]
    2. the per-offset products:   (g ⋆ w)[k, r, o] = Σ_c g[k, r, c] · w[k, c, o]
    3. scatter-add into the bias: out[n, o] = b[o] + Σ over the pairs (k, r) with s_out[k, r] = n of (g ⋆ w)[k, r, o]

  Steps 1 and 3 are the host's gather and scatter-add, kept as they are: both programs apply them, and nothing here
  needs to open them. Step 2 is `Cert.SparseConv.contract`.
-/
import proofs.«155002_j10934986735759_2_alg».proof.Proof.Gen.KernelIdeal
import proofs.«155002_j10934986735759_2_alg».proof.Proof.Contract

noncomputable section

namespace Cert.KernelIdeal.Whole

open Cert.KernelIdeal Cert.KernelIdeal.Gen Idealize.ShloMosaic
open Cert.SparseConv (contract)

/-- Step 1: the rows of `x` at the input sites (a negative site first moved up by the number of rows). -/
def gatherRows (x : FVec Ideal S500000x16 .f32) (sites : IVec S27x250000 32) : FVec Ideal S27x250000x16 .f32 :=
  Host.gather gather_S500000x16_S27x250000x1_S27x250000x16_2_0_n_n_0_2_116 x
    (broadcastInDim S27x250000x1 ![0, 1] bcast_S27x250000_S27x250000x1_0_1
      (select (cmpi .slt sites (broadcastInDim S27x250000 ![] bcast_S_S27x250000 (constantI S_ 32 0#32)))
        (addi sites (broadcastInDim S27x250000 ![] bcast_S_S27x250000 (constantI S_ 32 500000#32)))
        sites))

/-- Step 3: the bias on every row, plus every pair's contribution added at its output site (the pairs of all offsets
    laid out as one list of 27 · 250000 rows; a negative site first moved up by the number of rows). -/
def scatterRows (bias : FVec Ideal S16 .f32) (sites : IVec S27x250000 32) (contrib : FVec Ideal S27x250000x16 .f32) :
    FVec Ideal S500000x16 .f32 :=
  Host.scatterAdd (F := Ideal) (φ := .f32) scatter_S500000x16_S6750000x1_S6750000x16_1_0_0_1
    (broadcastInDim S500000x16 ![1] bcast_S16_S500000x16_1 bias)
    (broadcastInDim S6750000x1 ![0] bcast_S6750000_S6750000x1_0
      (select (cmpi .slt (shapeCast _ sites shapeCasts_S27x250000_S6750000) (broadcastInDim S6750000 ![] bcast_S_S6750000 (constantI S_ 32 0#32)))
        (addi (shapeCast _ sites shapeCasts_S27x250000_S6750000) (broadcastInDim S6750000 ![] bcast_S_S6750000 (constantI S_ 32 500000#32)))
        (shapeCast _ sites shapeCasts_S27x250000_S6750000)))
    (shapeCast _ contrib shapeCasts_S27x250000x16_S6750000x16)

/-- The sparse convolution: gather, per-offset products, scatter-add into the bias. -/
def sparseConv (x : FVec Ideal S500000x16 .f32) (w : FVec Ideal S27x16x16 .f32) (bias : FVec Ideal S16 .f32)
    (sitesIn sitesOut : IVec S27x250000 32) : FVec Ideal S500000x16 .f32 :=
  scatterRows bias sitesOut (contract (gatherRows x sitesIn) w)

end Cert.KernelIdeal.Whole

end
-- ==== Proof.KernelRun.lean ====
/-
  The kernel's program computes the sparse convolution.

  Before its grid the program rounds the features and the filter to a narrower float format — the identity on the
  extended reals — and gathers the input rows; so the arrays the grid finds are the gathered rows g and the filter w
  themselves. The grid leaves g ⋆ w (the tiles cover the array). After the grid the program broadcasts the bias,
  flattens the output sites and the contributions, and scatter-adds: the result is `sparseConv` of the arguments.
-/
import proofs.«155002_j10934986735759_2_alg».proof.Proof.Blocks
import proofs.«155002_j10934986735759_2_alg».proof.Proof.WholeSpec
import Idealize.ShloMosaic.Lib.StableHlo.Run

noncomputable section

namespace Cert.KernelIdeal.Whole

open Cert.KernelIdeal Cert.KernelIdeal.Gen Idealize.ShloMosaic Idealize.ShloMosaic.TcCoe Idealize.SL.Sem Idealize.ShloMosaic.StableHlo
open Idealize.ShloMosaic.Pipeline (Dat)
open Cert.SparseConv (contract)

variable (m : (ℓ : Loc nD τ sig) → Buf (Elt Ideal) ℓ) (ρ : Dev nD → PrngReg)

/-- The rows the grid finds are the features' rows gathered at the input sites: rounding to the narrower format
    changes no extended real. -/
theorem rows_found (c : Dev nD) :
    V m c main_v8 = gatherRows (m ((c.tc : Thread nD τ).loc main_arg0)) (m ((c.tc : Thread nD τ).loc main_arg3)) := by
  show StableHlo.after hostOps0 (fun b => m (c, b)) (Proc.devRef .tc main_v8) = _
  after_results
  rfl

/-- The filter the grid finds is the filter: rounding to the narrower format changes no extended real. -/
theorem filter_found (c : Dev nD) : V m c main_v1 = m ((c.tc : Thread nD τ).loc main_arg1) := by
  show StableHlo.after hostOps0 (fun b => m (c, b)) (Proc.devRef .tc main_v1) = _
  after_results
  rfl

/-- THE RESULT: what the lines after the grid leave in the result buffer is the sparse convolution of the arguments. -/
theorem result (c : Dev nD) :
    Pipeline.afterTail₀ cfgs (dats m) 0 (V0 m) [hostOps1] c main_v19
      = sparseConv (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  have hb : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans (V_main_arg2 m c)
  have hs : Pipeline.withArrays (cfgs 0).spec c (V0 m c) (fun w => (dats m 0 c).arrAt w (cfgs 0).N) (Proc.devRef .tc main_arg4)
      = m ((c.tc : Thread nD τ).loc main_arg4) :=
    (Pipeline.withArrays_of_ne _ c (V0 m c) _ main_arg4 (by exact (by decide : ∀ w, Pipeline.arrRef spec0 w ≠ main_arg4))).trans (V_main_arg4 m c)
  have hc : Pipeline.withArrays (cfgs 0).spec c (V0 m c) (fun w => (dats m 0 c).arrAt w (cfgs 0).N) (Proc.devRef .tc main_v9)
      = contract (gatherRows (m ((c.tc : Thread nD τ).loc main_arg0)) (m ((c.tc : Thread nD τ).loc main_arg3))) (m ((c.tc : Thread nD τ).loc main_arg1)) :=
    ((Pipeline.withArrays_arr spec0 launch0.win.arr_inj c _ _ 2).trans (Tiles.contributions m c)).trans
      (by rw [rows_found, filter_found])
  unfold Pipeline.afterTail₀
  show StableHlo.after hostOps1 _ (Proc.devRef .tc main_v19) = _
  after_results
  rw [hb, hs, hc]
  rfl

/-- The program's run, read: the result buffer ends at the sparse convolution of the arguments, which end unchanged. -/
theorem run : θ_run defs (onTc (τ := τ) (main (F := Ideal))) ⟨m, fun _ => 0, ρ⟩ (fun r => ∀ c : Dev nD,
      r.2.mem ((c.tc : Thread nD τ).loc main_v19)
        = sparseConv (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v19 (Pipeline.mem_restRefs_of main_v19 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Whole

end
-- ==== Proof.RefSide.lean ====
/-
  The reference computes the sparse convolution.

  The reference gathers the features' rows at the input sites, multiplies each offset's rows by that offset's
  filter with one batched product, and scatter-adds into the broadcast bias. Entry (k, r, o) of the batched
  product is Σ_c g[k, r, c] · w[k, c, o]: the product is g ⋆ w, and the lines around it are the gather and the
  scatter-add of `sparseConv`.
-/
import proofs.«155002_j10934986735759_2_alg».proof.Proof.Gen.ReferenceIdeal.Read
import proofs.«155002_j10934986735759_2_alg».proof.Proof.WholeSpec

noncomputable section

namespace Cert.ReferenceIdeal.Whole

open Cert.ReferenceIdeal Cert.ReferenceIdeal.Gen Cert.ReferenceIdeal.Read Idealize.ShloMosaic
open Cert.SparseConv (contract)
open Idealize.ShloMosaic.ValueIdx

/-- The batched product of the gathered rows with the filter is `g ⋆ w`. -/
theorem product_eq (x0 : (⟨S500000x16, .f32⟩ : BufTy).Contents (Elt Ideal)) (x1 : (⟨S27x16x16, .f32⟩ : BufTy).Contents (Elt Ideal))
    (x3 : (⟨S27x250000, .i32⟩ : BufTy).Contents (Elt Ideal)) :
    val_main_v7 (F := Ideal) x0 x1 x3 = contract (val_main_v6 (F := Ideal) x0 x3) x1 := by
  funext i
  rw [val_main_v7_apply]
  generalize val_main_v6 (F := Ideal) x0 x3 = g
  show _ = ∑ c : Fin 16, g (ix3 ⟨(i 0).val, (i 0).isLt⟩ ⟨(i 1).val, (i 1).isLt⟩ c) * x1 (ix3 ⟨(i 0).val, (i 0).isLt⟩ c ⟨(i 2).val, (i 2).isLt⟩)
  refine Finset.sum_congr rfl fun k _ => ?_
  have el : lidx_main_v7 i k = ix3 ⟨(i 0).val, (i 0).isLt⟩ ⟨(i 1).val, (i 1).isLt⟩ k :=
    funext fun a => by match a with | ⟨0, _⟩ => rfl | ⟨1, _⟩ => rfl | ⟨2, _⟩ => rfl
  have er : ridx_main_v7 i k = ix3 ⟨(i 0).val, (i 0).isLt⟩ k ⟨(i 2).val, (i 2).isLt⟩ :=
    funext fun a => by match a with | ⟨0, _⟩ => rfl | ⟨1, _⟩ => rfl | ⟨2, _⟩ => rfl
  rw [el, er]
  rfl

/-- The reference's result is the sparse convolution of its arguments. -/
theorem result_eq (x0 : (⟨S500000x16, .f32⟩ : BufTy).Contents (Elt Ideal)) (x1 : (⟨S27x16x16, .f32⟩ : BufTy).Contents (Elt Ideal))
    (x2 : (⟨S16, .f32⟩ : BufTy).Contents (Elt Ideal)) (x3 x4 : (⟨S27x250000, .i32⟩ : BufTy).Contents (Elt Ideal)) :
    val_main_v17 (F := Ideal) x0 x1 x2 x3 x4 = Cert.KernelIdeal.Whole.sparseConv x0 x1 x2 x3 x4 := by
  unfold val_main_v17 val_main_v10
  rw [product_eq]
  rfl

end Cert.ReferenceIdeal.Whole

end
-- ==== Proof.lean ====
/-
  A sparse (submanifold) convolution by rule book: the tiled kernel against the plain reference.

  Both programs compute, from features x[n, c], a filter w[k, c, o], a bias b[o] and a rule book of input sites
  s_in[k, r] and output sites s_out[k, r] (27 offsets k, 250000 pairs r each):

      out[n, o] = b[o] + Σ over the pairs (k, r) with s_out[k, r] = n of Σ_c x[s_in[k, r], c] · w[k, c, o].

  The reference gathers the rows, forms every offset's products with ONE batched matrix product, and scatter-adds
  into the broadcast bias. The kernel's program rounds the features and the filter to a narrower float format first,
  gathers, forms the products tile by tile (10000 pairs of one offset per grid point, each a 10000 × 16 by 16 × 16
  matrix product into a zero accumulator), and scatter-adds in the same way.

  On the extended reals a change of float format is the identity, a matrix product into a zero accumulator is the plain
  sum of products, and the tiles are blocks of one array; so both programs end at the same function of the arguments
  (`Whole.sparseConv`): the gather and the scatter-add are shared and never opened, and the inner sum over the sixteen
  input channels is the same finite sum on both sides (Proof/Contract.lean). No finiteness of the inputs is used.

  Proof/TileProduct.lean reads what one grid point stores; Proof/Blocks.lean shows the tiles cover the array of
  contributions; Proof/KernelRun.lean reads the kernel's whole program; Proof/RefSide.lean reads the reference's.
  The kernel's idealization rewrote nothing, so it is preserved trivially.
-/
import proofs.«155002_j10934986735759_2_alg».proof.Defs
import proofs.«155002_j10934986735759_2_alg».proof.Proof.Gen.Kernel
import proofs.«155002_j10934986735759_2_alg».proof.Proof.Gen.Kernel.Skeleton
import proofs.«155002_j10934986735759_2_alg».proof.Proof.Gen.Kernel.Launch
import proofs.«155002_j10934986735759_2_alg».proof.Proof.Gen.Kernel.Points
import proofs.«155002_j10934986735759_2_alg».proof.Proof.Gen.Kernel.Frame
import proofs.«155002_j10934986735759_2_alg».proof.Proof.Gen.KernelIdeal
import proofs.«155002_j10934986735759_2_alg».proof.Proof.Gen.KernelIdeal.Skeleton
import proofs.«155002_j10934986735759_2_alg».proof.Proof.Gen.KernelIdeal.Launch
import proofs.«155002_j10934986735759_2_alg».proof.Proof.Gen.KernelIdeal.Points
import proofs.«155002_j10934986735759_2_alg».proof.Proof.Gen.KernelIdeal.Frame
import proofs.«155002_j10934986735759_2_alg».proof.Proof.Gen.ReferenceIdeal
import proofs.«155002_j10934986735759_2_alg».proof.Proof.Gen.ReferenceIdeal.Run
import proofs.«155002_j10934986735759_2_alg».proof.Proof.Gen.ReferenceIdeal.Read
import proofs.«155002_j10934986735759_2_alg».proof.Proof.Gen.Pre_finite_inputs
import proofs.«155002_j10934986735759_2_alg».proof.Proof.KernelRun
import proofs.«155002_j10934986735759_2_alg».proof.Proof.RefSide
import Idealize.ShloMosaic.Adequacy
import Idealize.ShloMosaic.Init

noncomputable section

namespace Cert.Proof

open Idealize.ShloMosaic Idealize.SL.Sem

/-- The kernel's program, at the word level, runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals both programs end at the sparse convolution of the arguments they agree on. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.Whole.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
